-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x1536 : Shape := ⟨2, ![512, 1536]⟩
abbrev S512 : Shape := ⟨1, ![512]⟩
abbrev S100000x3x1 : Shape := ⟨3, ![100000, 3, 1]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S100000x3x1 : S_.BroadcastsInDim S100000x3x1 (![] : Fin 0 → Fin S100000x3x1.rank)
  reducesTo_S100000x3x1_S_d0_1_2 : S100000x3x1.ReducesTo [0, 1, 2] S_

variable [Facts]

def fn_part1 {F : FTy → Type} [FloatOps F] (main_v13 : IVec S_ 1) (main_v16 : IVec S100000x3x1 1) : IVec S_ 1 :=
  let main_c_5 : IVec S_ 1 := constantI S_ 1 1#1
  let main_v17 : IVec S_ 1 := (fun x v => Host.reduce IntOp.andi x v reducesTo_S100000x3x1_S_d0_1_2 h_S_) main_v16 main_c_5
  let main_v18 : IVec S_ 1 := andi main_v13 main_v17
  main_v18

def fn {F : FTy → Type} [FloatOps F] (main_arg0 : FVec F S100000x512 .f32) (main_arg1 : FVec F S512x1536 .f32) (main_arg2 : FVec F S512 .f32) (main_arg3 : FVec F S100000x3x1 .f32) (main_arg4 : IVec S100000 32) (main_arg5 : IVec S100000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S100000x3x1 .f32 := Host.absf main_arg3
  let main_cst_4 : FVec F S_ .f32 := constant S_ .f32 0x7F800000#32
  let main_v15 : FVec F S100000x3x1 .f32 := broadcastInDim S100000x3x1 ![] bcast_S_S100000x3x1 main_cst_4
  let main_v16 : IVec S100000x3x1 1 := cmpf .olt main_v14 main_v15
  fn_part1 (F := F) main_v13 main_v16
-- ==== Kernel.lean ====
abbrev S100000x512 : Shape := ⟨2, ![100000, 512]⟩
abbrev S512x1536 : Shape := ⟨2, ![512, 1536]⟩
abbrev S512 : Shape := ⟨1, ![512]⟩
abbrev S100000x3x1 : Shape := ⟨3, ![100000, 3, 1]⟩
abbrev S100000 : Shape := ⟨1, ![100000]⟩
abbrev S100000x1536 : Shape := ⟨2, ![100000, 1536]⟩
abbrev S1000x512 : Shape := ⟨2, ![1000, 512]⟩
abbrev S1000x1536 : Shape := ⟨2, ![1000, 1536]⟩
abbrev S100000x3x512 : Shape := ⟨3, ![100000, 3, 512]⟩
abbrev S_ : Shape := ⟨0, ![]⟩
abbrev S100000x1 : Shape := ⟨2, ![100000, 1]⟩
abbrev S1x512 : Shape := ⟨2, ![1, 512]⟩
abbrev S2000x512 : Shape := ⟨2, ![2000, 512]⟩

abbrev nBuf : Space → Nat
  | .hbm => 28
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x1536, .f32⟩
  | .hbm, ⟨2, _⟩ => ⟨S512, .f32⟩
  | .hbm, ⟨3, _⟩ => ⟨S100000x3x1, .f32⟩
  | .hbm, ⟨4, _⟩ => ⟨S100000, .i32⟩
  | .hbm, ⟨5, _⟩ => ⟨S100000, .i32⟩
  | .hbm, ⟨6, _⟩ => ⟨S100000x1536, .bf16⟩
  | .hbm, ⟨7, _⟩ => ⟨S100000x3x512, .bf16⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S100000x3x512, .bf16⟩
  | .hbm, ⟨17, _⟩ => ⟨S100000x3x512, .f32⟩
  | .hbm, ⟨18, _⟩ => ⟨S100000x3x512, .f32⟩
  | .hbm, ⟨19, _⟩ => ⟨S100000x3x512, .f32⟩
  | .hbm, ⟨20, _⟩ => ⟨S_, .f32⟩
  | .hbm, ⟨21, _⟩ => ⟨S100000x512, .f32⟩
  | .hbm, ⟨22, _⟩ => ⟨S_, .f32⟩
  | .hbm, ⟨23, _⟩ => ⟨S100000x512, .f32⟩
  | .hbm, ⟨24, _⟩ => ⟨S100000x1, .i32⟩
  | .hbm, ⟨25, _⟩ => ⟨S100000x512, .f32⟩
  | .hbm, ⟨26, _⟩ => ⟨S1x512, .f32⟩
  | .hbm, ⟨27, _⟩ => ⟨S100000x512, .f32⟩
  | .local _ .vmem, ⟨0, _⟩ => ⟨S1000x512, .f32⟩
  | .local _ .vmem, ⟨1, _⟩ => ⟨S1000x512, .f32⟩
  | .local _ .vmem, ⟨2, _⟩ => ⟨S512x1536, .f32⟩
  | .local _ .vmem, ⟨3, _⟩ => ⟨S1000x1536, .bf16⟩
  | .local _ .vmem, ⟨4, _⟩ => ⟨S1000x1536, .bf16⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  inb_S1000x1536_S1000x1536_0_0 : ∀ a, (![0, 0] : Fin 2 → Nat) a + S1000x1536.size a ≤ S1000x1536.size a
  h_S1000x1536 : 0 < S1000x1536.numel
  packedbf16_S1000x1536_S1000x1536_0_0 : (Rect.unit (s := S1000x1536) ![0, 0] S1000x1536.size inb_S1000x1536_S1000x1536_0_0).PackedRows (EltTy.packing .bf16)
  shapeCasts_S100000x1536_S100000x3x512 : S100000x1536.ShapeCasts S100000x3x512
  bcast_S_S100000 : S_.BroadcastsInDim S100000 (![] : Fin 0 → Fin S100000.rank)
  bcast_S100000_S100000x1_0 : S100000.BroadcastsInDim S100000x1 (![0] : Fin 1 → Fin S100000x1.rank)
  bcast_S100000x3x1_S100000x3x512_0_1_2 : S100000x3x1.BroadcastsInDim S100000x3x512 (![0, 1, 2] : Fin 3 → Fin S100000x3x512.rank)
  reducesTo_S100000x3x512_S100000x512_d1 : S100000x3x512.ReducesTo [1] S100000x512
  h_S_ : 0 < S_.numel
  bcast_S_S100000x512 : S_.BroadcastsInDim S100000x512 (![] : Fin 0 → Fin S100000x512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  dot_S1000x512_S512x1536_S1000x1536_1_0_0_1_n_n_wf : DotDims.WF S1000x512 S512x1536 S1000x1536 [1] [0] [0] [1] [] []
  gather_S100000x3x512_S100000x1_S100000x3x512_12_0_n_n_0_1_13512_wf : GatherDims.WF S100000x3x512 S100000x1 S100000x3x512 [1, 2] [0] [] [0] [] 1 ![1, 3, 512]
  scatter_S100000x512_S100000x1_S100000x512_1_0_0_1_wf : ScatterDims.WF S100000x512 S100000x1 S100000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1536.size a ≤ S100000x1536.size a
  hwx0_2 : ∀ i : grid0.Coords, EltTy.bits .bf16 = 32 ∨ (Rect.block (s := S100000x1536) S1000x1536.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S100000x512.size a
  hwx1_2 : ∀ i : grid1.Coords, EltTy.bits .f32 = 32 ∨ (Rect.block (s := S100000x512) S2000x512.size (cc1_transform_2 i) (hinb1_2 i)).WholeWords (EltTy.packing .f32)

variable [Facts₀]

def dot_S1000x512_S512x1536_S1000x1536_1_0_0_1_n_n : DotDims S1000x512 S512x1536 S1000x1536 where
  lhsContracting := [1]
  rhsContracting := [0]
  lhsNonContracting := [0]
  rhsNonContracting := [1]
  lhsBatch := []
  rhsBatch := []
  wf := dot_S1000x512_S512x1536_S1000x1536_1_0_0_1_n_n_wf
def gather_S100000x3x512_S100000x1_S100000x3x512_12_0_n_n_0_1_13512 : GatherDims S100000x3x512 S100000x1 S100000x3x512 where
  offsetDims := [1, 2]
  collapsedSliceDims := [0]
  operandBatchingDims := []
  startIndicesBatchingDims := []
  startIndexMap := [0]
  indexVectorDim := 1
  sliceSizes := ![1, 3, 512]
  wf := gather_S100000x3x512_S100000x1_S100000x3x512_12_0_n_n_0_1_13512_wf
def scatter_S100000x512_S100000x1_S100000x512_1_0_0_1 : ScatterDims S100000x512 S100000x1 S100000x512 where
  updateWindowDims := [1]
  insertedWindowDims := [0]
  scatterDimsToOperandDims := [0]
  indexVectorDim := 1
  wf := scatter_S100000x512_S100000x1_S100000x512_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x1536 : Shape := ⟨2, ![512, 1536]⟩
abbrev S512 : Shape := ⟨1, ![512]⟩
abbrev S100000x3x1 : Shape := ⟨3, ![100000, 3, 1]⟩
abbrev S100000 : Shape := ⟨1, ![100000]⟩
abbrev S100000x1536 : Shape := ⟨2, ![100000, 1536]⟩
abbrev S100000x3x512 : Shape := ⟨3, ![100000, 3, 512]⟩
abbrev S_ : Shape := ⟨0, ![]⟩
abbrev S100000x1 : Shape := ⟨2, ![100000, 1]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x1536, .f32⟩
  | .hbm, ⟨2, _⟩ => ⟨S512, .f32⟩
  | .hbm, ⟨3, _⟩ => ⟨S100000x3x1, .f32⟩
  | .hbm, ⟨4, _⟩ => ⟨S100000, .i32⟩
  | .hbm, ⟨5, _⟩ => ⟨S100000, .i32⟩
  | .hbm, ⟨6, _⟩ => ⟨S100000x1536, .f32⟩
  | .hbm, ⟨7, _⟩ => ⟨S100000x3x512, .f32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S100000x3x512, .f32⟩
  | .hbm, ⟨17, _⟩ => ⟨S100000x3x512, .f32⟩
  | .hbm, ⟨18, _⟩ => ⟨S100000x3x512, .f32⟩
  | .hbm, ⟨19, _⟩ => ⟨S_, .f32⟩
  | .hbm, ⟨20, _⟩ => ⟨S100000x3x512, .f32⟩
  | .hbm, ⟨21, _⟩ => ⟨S100000x1, .i32⟩
  | .hbm, ⟨22, _⟩ => ⟨S100000x3x512, .f32⟩
  | .hbm, ⟨23, _⟩ => ⟨S_, .f32⟩
  | .hbm, ⟨24, _⟩ => ⟨S100000x512, .f32⟩
  | .hbm, ⟨25, _⟩ => ⟨S1x512, .f32⟩
  | .hbm, ⟨26, _⟩ => ⟨S100000x512, .f32⟩
  | .hbm, ⟨27, _⟩ => ⟨S100000x512, .f32⟩
  | .hbm, ⟨28, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  shapeCasts_S100000x1536_S100000x3x512 : S100000x1536.ShapeCasts S100000x3x512
  bcast_S_S100000 : S_.BroadcastsInDim S100000 (![] : Fin 0 → Fin S100000.rank)
  bcast_S100000_S100000x1_0 : S100000.BroadcastsInDim S100000x1 (![0] : Fin 1 → Fin S100000x1.rank)
  bcast_S100000x3x1_S100000x3x512_0_1_2 : S100000x3x1.BroadcastsInDim S100000x3x512 (![0, 1, 2] : Fin 3 → Fin S100000x3x512.rank)
  bcast_S_S100000x3x512 : S_.BroadcastsInDim S100000x3x512 (![] : Fin 0 → Fin S100000x3x512.rank)
  reducesTo_S100000x3x512_S100000x512_d1 : S100000x3x512.ReducesTo [1] S100000x512
  h_S_ : 0 < S_.numel
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x1536_S100000x1536_1_0_0_1_n_n_wf : DotDims.WF S100000x512 S512x1536 S100000x1536 [1] [0] [0] [1] [] []
  gather_S100000x3x512_S100000x1_S100000x3x512_12_0_n_n_0_1_13512_wf : GatherDims.WF S100000x3x512 S100000x1 S100000x3x512 [1, 2] [0] [] [0] [] 1 ![1, 3, 512]
  scatter_S100000x3x512_S100000x1_S100000x3x512_12_0_0_1_wf : ScatterDims.WF S100000x3x512 S100000x1 S100000x3x512 [1, 2] [0] [0] 1

variable [Facts₀]

def dot_S100000x512_S512x1536_S100000x1536_1_0_0_1_n_n : DotDims S100000x512 S512x1536 S100000x1536 where
  lhsContracting := [1]
  rhsContracting := [0]
  lhsNonContracting := [0]
  rhsNonContracting := [1]
  lhsBatch := []
  rhsBatch := []
  wf := dot_S100000x512_S512x1536_S100000x1536_1_0_0_1_n_n_wf
def gather_S100000x3x512_S100000x1_S100000x3x512_12_0_n_n_0_1_13512 : GatherDims S100000x3x512 S100000x1 S100000x3x512 where
  offsetDims := [1, 2]
  collapsedSliceDims := [0]
  operandBatchingDims := []
  startIndicesBatchingDims := []
  startIndexMap := [0]
  indexVectorDim := 1
  sliceSizes := ![1, 3, 512]
  wf := gather_S100000x3x512_S100000x1_S100000x3x512_12_0_n_n_0_1_13512_wf
def scatter_S100000x3x512_S100000x1_S100000x3x512_12_0_0_1 : ScatterDims S100000x3x512 S100000x1 S100000x3x512 where
  updateWindowDims := [1, 2]
  insertedWindowDims := [0]
  scatterDimsToOperandDims := [0]
  indexVectorDim := 1
  wf := scatter_S100000x3x512_S100000x1_S100000x3x512_12_0_0_1_wf

class Facts : Prop extends Facts₀ where

variable [Facts]
-- ==== Proof.KernelRun.lean ====
/-
  The idealized kernel program's run with its result named.

  The program is two pipelined regions with a stretch of host operations between them. Its generated frame
  already threads the contents of every unscoped buffer through the three segments; at the end every such buffer
  holds the last boundary's contents. Here the same launch is read once more, keeping the result buffer beside the
  arguments: the result ends at the last boundary's contents of its buffer, the arguments as launched.
-/
import proofs.«149180_j47536698032657_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    second region's write-backs left in it, and the six arguments are unchanged. -/
theorem run_result : θ_run defs (onTc (τ := τ) (main (F := F))) ⟨m, fun _ => 0, ρ⟩ (fun r => ∀ c : Dev nD,
      r.2.mem ((c.tc : Thread nD τ).loc main_v17) = W3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v17 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunValue

end
-- ==== Proof.HostStretch.lean ====
/-
  The host operations between the two regions, as functions of what they read.

  From the projected features h (the first region's array, [100000, 1536]) the stretch forms, per edge e, slot s and
  channel c, the message h[src e, s, c] · eta[e, s] (`msg`: the source index wrapped when negative, the row
  gathered, the slot weight broadcast along the channels), sums the three slots of each edge, and adds each edge's
  sum into the row of its destination node (`agg`, a scatter into zeros). The bias vector is recast as a 1×512 row
  (`biasRow`). The second region is entered with these two arrays in its input windows.
-/
import proofs.«149180_j47536698032657_2_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- The per-edge, per-slot, per-channel message: the gathered source row of the projected features times the
    edge's slot weight. -/
def msg (h : (⟨S100000x1536, .bf16⟩ : BufTy).Contents (Elt F)) (x3 : (⟨S100000x3x1, .f32⟩ : BufTy).Contents (Elt F))
    (x4 : (⟨S100000, .i32⟩ : BufTy).Contents (Elt F)) : (⟨S100000x3x512, .f32⟩ : BufTy).Contents (Elt F) :=
  mulf (extf .f32 (Host.gather gather_S100000x3x512_S100000x1_S100000x3x512_12_0_n_n_0_1_13512
      (shapeCast _ h shapeCasts_S100000x1536_S100000x3x512)
      (broadcastInDim S100000x1 ![0] bcast_S100000_S100000x1_0
        (select (cmpi .slt x4 (broadcastInDim S100000 ![] bcast_S_S100000 (constantI S_ 32 0#32)))
          (addi x4 (broadcastInDim S100000 ![] bcast_S_S100000 (constantI S_ 32 100000#32))) x4))) bitsLt_bf16_f32)
    (broadcastInDim S100000x3x512 ![0, 1, 2] bcast_S100000x3x1_S100000x3x512_0_1_2 x3)

/-- The aggregate: each edge's slot-summed message added into the row of its destination node, from zeros. -/
def agg (h : (⟨S100000x1536, .bf16⟩ : BufTy).Contents (Elt F)) (x3 : (⟨S100000x3x1, .f32⟩ : BufTy).Contents (Elt F))
    (x4 x5 : (⟨S100000, .i32⟩ : BufTy).Contents (Elt F)) : (⟨S100000x512, .f32⟩ : BufTy).Contents (Elt F) :=
  Host.scatterAdd scatter_S100000x512_S100000x1_S100000x512_1_0_0_1
    (broadcastInDim S100000x512 ![] bcast_S_S100000x512 (constant S_ .f32 0x00000000#32))
    (broadcastInDim S100000x1 ![0] bcast_S100000_S100000x1_0 x5)
    (Host.reduceAdd (msg h x3 x4) (constant S_ .f32 0x00000000#32) reducesTo_S100000x3x512_S100000x512_d1 h_S_)

/-- The bias vector as a 1×512 row. -/
def biasRow (x2 : (⟨S512, .f32⟩ : BufTy).Contents (Elt F)) : (⟨S1x512, .f32⟩ : BufTy).Contents (Elt F) :=
  shapeCast _ x2 shapeCasts_S512_S1x512

variable (m : (ℓ : Loc nD τ sig) → Buf (Elt F) ℓ) (ρ : Dev nD → PrngReg)

/-- The second region's first input array is the aggregate of what the first region left. -/
theorem entry_agg (c : Dev nD) :
    V2 m ρ c main_v15 = agg (V1 m ρ c main_v0) (V1 m ρ c main_arg3) (V1 m ρ c main_arg4) (V1 m ρ c main_arg5) := by
  show StableHlo.after hostOps1 (W1 m ρ c) (Proc.devRef .tc main_v15) = _
  unfold agg msg
  after_results
  rfl

/-- The second region's second input array is the bias row. -/
theorem entry_bias (c : Dev nD) : V2 m ρ c main_v16 = biasRow (V1 m ρ c main_arg2) := by
  show StableHlo.after hostOps1 (W1 m ρ c) (Proc.devRef .tc main_v16) = _
  unfold biasRow
  after_results
  rfl

/-- No region-0 window is over these arguments, so they pass the first region as launched. -/
theorem exit0_arg2 (c : Dev nD) : V1 m ρ c main_arg2 = m ((c : Thread nD τ).loc main_arg2) := W1_of_ne m ρ c main_arg2 (by decide)
theorem exit0_arg3 (c : Dev nD) : V1 m ρ c main_arg3 = m ((c : Thread nD τ).loc main_arg3) := W1_of_ne m ρ c main_arg3 (by decide)
theorem exit0_arg4 (c : Dev nD) : V1 m ρ c main_arg4 = m ((c : Thread nD τ).loc main_arg4) := W1_of_ne m ρ c main_arg4 (by decide)
theorem exit0_arg5 (c : Dev nD) : V1 m ρ c main_arg5 = m ((c : Thread nD τ).loc main_arg5) := W1_of_ne m ρ c main_arg5 (by decide)
/-- The first region's output array at its exit is what its write-backs left. -/
theorem exit0_v0 (c : Dev nD) : V1 m ρ c main_v0 = (dat0 (V0 m ρ) c).arrAt 2 cfg0.N := W1_arr m ρ c 2
/-- The second region's output array at its exit is what its write-backs left. -/
theorem exit1_v17 (c : Dev nD) : W3 m ρ c (Proc.devRef .tc main_v17) = (dat1 (V2 m ρ) c).arrAt 2 cfg1.N := W3_arr m ρ c 2

end Cert.KernelIdeal.HostValue

end
-- ==== Proof.Region0.lean ====
/-
  The first region's output array: every row block of x·W written back, so the array ends at the product.
-/
import proofs.«149180_j47536698032657_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

/-- The entry of x read for output index `i` and contraction index `k`: row `i 0`, column `k`. -/
abbrev rowIdx (i : S100000x1536.Idx) (k : Fin 512) : S100000x512.Idx := fun a => match a with
  | ⟨0, _⟩ => ⟨(i 0).val, (i 0).isLt⟩
  | ⟨1, _⟩ => ⟨k.val, k.isLt⟩
/-- The entry of W read for output index `i` and contraction index `k`: row `k`, column `i 1`. -/
abbrev colIdx (i : S100000x1536.Idx) (k : Fin 512) : S512x1536.Idx := fun a => match a with
  | ⟨0, _⟩ => ⟨k.val, k.isLt⟩
  | ⟨1, _⟩ => ⟨(i 1).val, (i 1).isLt⟩

/-- The matrix product on the extended reals, entry by entry. -/
def prodXW (a0 : S100000x512.Idx → EReal) (a1 : S512x1536.Idx → EReal) : S100000x1536.Idx → EReal :=
  fun i => ∑ k : Fin 512, a0 (rowIdx i k) * a1 (colIdx i k)

/-- The two zero offsets, however spelt. -/
theorem zero_offsets0 : (![0, 0] : Fin 2 → Nat) = fun _ => 0 := funext fun a => by fin_cases a <;> rfl

/-- The entry of the 1000×512 block of x read for block index `j` and contraction index `k`: row `j 0`, column `k`. -/
abbrev blockRowIdx (j : S1000x1536.Idx) (k : Fin 512) : S1000x512.Idx := fun a => match a with
  | ⟨0, _⟩ => ⟨(j 0).val, (j 0).isLt⟩
  | ⟨1, _⟩ => ⟨k.val, k.isLt⟩
/-- The entry of W read for block index `j` and contraction index `k`: row `k`, column `j 1`. -/
abbrev blockColIdx (j : S1000x1536.Idx) (k : Fin 512) : S512x1536.Idx := fun a => match a with
  | ⟨0, _⟩ => ⟨k.val, k.isLt⟩
  | ⟨1, _⟩ => ⟨(j 1).val, (j 1).isLt⟩

/-- The left operand's index keeps the output's row … -/
theorem lhs_row (j : S1000x1536.Idx) (q : dot_S1000x512_S512x1536_S1000x1536_1_0_0_1_n_n.contr.Idx) :
    (dot_S1000x512_S512x1536_S1000x1536_1_0_0_1_n_n.lhsIdx j q 0).val = (j 0).val := by
  unfold DotDims.lhsIdx
  rw [dif_neg (show ¬(0 : Fin S1000x512.rank) ∈ dot_S1000x512_S512x1536_S1000x1536_1_0_0_1_n_n.lhsBatch by decide), dif_pos (show (0 : Fin S1000x512.rank) ∈ dot_S1000x512_S512x1536_S1000x1536_1_0_0_1_n_n.lhsNonContracting by decide)]
  rfl
/-- … and takes the contraction index as its column. -/
theorem lhs_col (j : S1000x1536.Idx) (q : dot_S1000x512_S512x1536_S1000x1536_1_0_0_1_n_n.contr.Idx) :
    (dot_S1000x512_S512x1536_S1000x1536_1_0_0_1_n_n.lhsIdx j q 1).val = (q ⟨0, by decide⟩).val :=
  dot_S1000x512_S512x1536_S1000x1536_1_0_0_1_n_n.lhsIdx_val_of_single rfl j q
/-- The right operand's index takes the contraction index as its row … -/
theorem rhs_row (j : S1000x1536.Idx) (q : dot_S1000x512_S512x1536_S1000x1536_1_0_0_1_n_n.contr.Idx) :
    (dot_S1000x512_S512x1536_S1000x1536_1_0_0_1_n_n.rhsIdx j q 0).val = (q ⟨0, by decide⟩).val :=
  dot_S1000x512_S512x1536_S1000x1536_1_0_0_1_n_n.rhsIdx_val_of_single rfl j q
/-- … and keeps the output's column. -/
theorem rhs_col (j : S1000x1536.Idx) (q : dot_S1000x512_S512x1536_S1000x1536_1_0_0_1_n_n.contr.Idx) :
    (dot_S1000x512_S512x1536_S1000x1536_1_0_0_1_n_n.rhsIdx j q 1).val = (j 1).val := by
  unfold DotDims.rhsIdx
  rw [dif_neg (show ¬(1 : Fin S512x1536.rank) ∈ dot_S1000x512_S512x1536_S1000x1536_1_0_0_1_n_n.rhsBatch by decide), dif_pos (show (1 : Fin S512x1536.rank) ∈ dot_S1000x512_S512x1536_S1000x1536_1_0_0_1_n_n.rhsNonContracting by decide)]
  rfl

/-- The body's arithmetic at an index of the block: the block of x times W, the sum over the 512 columns of x. -/
theorem blockProduct_apply (x0 : Vec Ideal S1000x512 .f32) (x1 : Vec Ideal S512x1536 .f32) (j : S1000x1536.Idx) :
    k0_pay1 (F := Ideal) x0 x1 j = ∑ k : Fin 512, x0 (blockRowIdx j k) * x1 (blockColIdx j k) := by
  unfold k0_pay1
  show matmul (F := Ideal) dot_S1000x512_S512x1536_S1000x1536_1_0_0_1_n_n none (truncf .bf16 x0 Facts₀.bitsLt_bf16_f32) (truncf .bf16 x1 Facts₀.bitsLt_bf16_f32)
      (constant (F := Ideal) S1000x1536 .f32 0x00000000#32) j = _
  simp only [matmul]
  rw [Ideal.matmul_constant_zero_apply, ← Equiv.sum_comp (ValueIdx.contrEquiv1 dot_S1000x512_S512x1536_S1000x1536_1_0_0_1_n_n 512 rfl rfl).symm]
  refine Finset.sum_congr rfl fun k _ => ?_
  have hk := ValueIdx.contrEquiv1_symm_val dot_S1000x512_S512x1536_S1000x1536_1_0_0_1_n_n 512 rfl rfl k
  have el : dot_S1000x512_S512x1536_S1000x1536_1_0_0_1_n_n.lhsIdx j ((ValueIdx.contrEquiv1 dot_S1000x512_S512x1536_S1000x1536_1_0_0_1_n_n 512 rfl rfl).symm k) = blockRowIdx j k := funext fun a => Fin.ext (by
    match a with
    | ⟨0, _⟩ => exact lhs_row _ _
    | ⟨1, _⟩ => exact (lhs_col _ _).trans hk)
  have er : dot_S1000x512_S512x1536_S1000x1536_1_0_0_1_n_n.rhsIdx j ((ValueIdx.contrEquiv1 dot_S1000x512_S512x1536_S1000x1536_1_0_0_1_n_n 512 rfl rfl).symm k) = blockColIdx j k := funext fun a => Fin.ext (by
    match a with
    | ⟨0, _⟩ => exact (rhs_row _ _).trans hk
    | ⟨1, _⟩ => exact rhs_col _ _)
  rw [el, er]
  rfl

/-- The printed index maps over the grid: the row block of x and of the product moves with the point, W stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product at an index, from the entries it reads. -/
theorem prodXW_of_entries (A0 : S100000x512.Idx → EReal) (A1 : S512x1536.Idx → EReal) (i : S100000x1536.Idx)
    (f g : Fin 512 → EReal) (hf : ∀ k, f k = A0 (rowIdx i k)) (hg : ∀ k, g k = A1 (colIdx i k)) :
    ∑ k : Fin 512, f k * g k = prodXW A0 A1 i := by
  unfold prodXW
  exact Finset.sum_congr rfl fun k _ => by rw [hf k, hg k]

/-- What point `t` writes back is its row block of x·W of the two arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (prodXW (V c main_arg0) (V c main_arg1)) := by
  show (cfg0.win 2).cut (grid0.coords t) ((dat0 V c).after 2 t) = _
  rw [after0_2]
  unfold out0_2
  rw [View.canon_unit_zero zero_offsets0]
  simp only [View.ld_unit_zero (S := S1000x512) zero_offsets0, View.ld_unit_zero (S := S512x1536) zero_offsets0]
  obtain ⟨e0, e1, e2, e3, e4, e5⟩ := index_maps0 t
  funext j
  show k0_pay1 (iblk0 V c 0 t) (iblk0 V c 1 t) j
    = prodXW (V c main_arg0) (V c main_arg1) (((cfg0.win 2).blk t).view.emb j)
  refine (blockProduct_apply (iblk0 V c 0 t) (iblk0 V c 1 t) j).trans ?_
  refine prodXW_of_entries _ _ _ _ _ (fun k => ?_) (fun k => ?_)
  · show V c main_arg0 (((cfg0.win 0).blk t).view.emb (blockRowIdx j k))
      = V c main_arg0 (rowIdx (((cfg0.win 2).blk t).view.emb j) k)
    refine congrArg _ (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 512 + 1 * k.val = k.val; omega
  · show V c main_arg1 (((cfg0.win 1).blk t).view.emb (blockColIdx j k))
      = V c main_arg1 (colIdx (((cfg0.win 2).blk t).view.emb j) k)
    refine congrArg _ (funext fun a => Fin.ext ?_)
    match a with
    | ⟨0, _⟩ => show win0_1.index t (0 : Fin 2) * 512 + 1 * k.val = k.val; omega
    | ⟨1, _⟩ => show win0_1.index t (1 : Fin 2) * 1536 + 1 * (j 1).val = win0_2.index t (1 : Fin 2) * 1536 + 1 * (j 1).val; omega

/-- An index of the array is in point `t`'s row block iff each coordinate is in the block's range on its axis. -/
theorem mem_rowBlock0 (t : Fin cfg0.N) (i : S100000x1536.Idx) :
    i ∈ ((cfg0.win 2).blk t).view.set ↔ ∀ a : Fin 2, win0_2.index t a * S1000x1536.size a ≤ (i a).val
      ∧ (i a).val < win0_2.index t a * S1000x1536.size a + S1000x1536.size a := by
  show i ∈ ((View.whole main_v0).slice (win0_2.rect t)).set ↔ _
  rw [View.set_slice_whole, Rect.mem_set_unit]
  exact Iff.rfl

/-- Row `r` of the array is in the block of point `r / 1000`: the hundred row blocks fill the array. -/
theorem rowBlocks_cover0 (i : S100000x1536.Idx) :
    ∃ t : Fin cfg0.N, (cfg0.win 2).flush t = true ∧ i ∈ ((cfg0.win 2).blk t).view.set := by
  have hi0 : (i 0).val < 100000 := (i 0).isLt
  have hi1 : (i 1).val < 1536 := (i 1).isLt
  have hN : grid0.N = 100 := N_0
  obtain ⟨t, ht⟩ : ∃ t : Fin cfg0.N, t.val = (i 0).val / 1000 :=
    ⟨⟨(i 0).val / 1000, by show (i 0).val / 1000 < grid0.N; omega⟩, rfl⟩
  obtain ⟨e0, e1, e2, e3, e4, e5⟩ := index_maps0 t
  refine ⟨t, flush0_2 t, ?_⟩
  rw [mem_rowBlock0]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 1536 ≤ (i 1).val ∧ (i 1).val < win0_2.index t (1 : Fin 2) * 1536 + 1536
    omega

theorem region0_array (V : (c : Dev nD) → (b : Ref sig .tc) → Buf (Elt Ideal) ((c : Thread nD τ).loc b)) (c : Dev nD) :
    (dat0 (F := Ideal) V c).arrAt 2 cfg0.N = prodXW (V c main_arg0) (V c main_arg1) :=
  (dat0 (F := Ideal) V c).arrAt_eq_of_cover 2 (prodXW (V c main_arg0) (V c main_arg1))
    (fun t _ => flushed0_eq V c t) rowBlocks_cover0

end Cert.KernelIdeal.RegionValue

end
-- ==== Proof.Region1.lean ====
/-
  The second region's output array: every row block of tanh(a + bias) written back, so the array ends at
  tanh(a + bias), the bias row repeated down the rows.
-/
import proofs.«149180_j47536698032657_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

/-- The entry of the 1×512 bias row read for output index `i`: column `i 1`. -/
abbrev biasIdx (i : S100000x512.Idx) : S1x512.Idx := fun a => match a with
  | ⟨0, _⟩ => ⟨0, Nat.one_pos⟩
  | ⟨1, _⟩ => ⟨(i 1).val, (i 1).isLt⟩

/-- tanh(a + bias) on the extended reals, entry by entry. -/
def biasTanh (a : S100000x512.Idx → EReal) (b : S1x512.Idx → EReal) : S100000x512.Idx → EReal :=
  fun i => Ideal.tanh (a i + b (biasIdx i))

/-- The two zero offsets, however spelt. -/
theorem zero_offsets1 : (![0, 0] : Fin 2 → Nat) = fun _ => 0 := funext fun a => by fin_cases a <;> rfl

/-- The body's arithmetic at an index of the block: tanh of the block's entry plus the bias row's entry in the
    same column. -/
theorem blockTanh_apply (x0 : Vec Ideal S2000x512 .f32) (x1 : Vec Ideal S1x512 .f32) (j : S2000x512.Idx) (k : S1x512.Idx)
    (hk0 : (k 0).val = 0) (hk1 : (k 1).val = (j 1).val) :
    k1_pay1 (F := Ideal) x0 x1 j = Ideal.tanh (x0 j + x1 k) := by
  unfold k1_pay1
  simp only [shapeCast_self]
  show Ideal.tanh (x0 j + broadcastTo S2000x512 x1 Facts₀.broadcasts_S1x512_S2000x512 j) = _
  rw [broadcastTo_apply x1 _ j k (fun a => by
    match a with
    | ⟨0, _⟩ => exact hk0
    | ⟨1, _⟩ => exact hk1)]

/-- The printed index maps over the grid: the row block moves with the point, the bias row stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- tanh(a + bias) at an index, from the two entries it reads. -/
theorem biasTanh_of_entries (A : S100000x512.Idx → EReal) (B : S1x512.Idx → EReal) (i : S100000x512.Idx) (a b : EReal)
    (ha : a = A i) (hb : b = B (biasIdx i)) : Ideal.tanh (a + b) = biasTanh A B i := by
  subst ha hb; rfl

/-- What point `t` writes back is its row block of tanh(a + bias) of the two arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (biasTanh (V c main_v15) (V c main_v16)) := by
  show (cfg1.win 2).cut (grid1.coords t) ((dat1 V c).after 2 t) = _
  rw [after1_2]
  unfold out1_2
  rw [View.canon_unit_zero zero_offsets1]
  simp only [View.ld_unit_zero (S := S2000x512) zero_offsets1, View.ld_unit_zero (S := S1x512) zero_offsets1]
  obtain ⟨e0, e1, e2, e3, e4, e5⟩ := index_maps1 t
  funext j
  show k1_pay1 (iblk1 V c 0 t) (iblk1 V c 1 t) j
    = biasTanh (V c main_v15) (V c main_v16) (((cfg1.win 2).blk t).view.emb j)
  have hcol : ((((cfg1.win 2).blk t).view.emb j) 1).val = (j 1).val := by
    show win1_2.index t (1 : Fin 2) * 512 + 1 * (j 1).val = (j 1).val
    omega
  refine (blockTanh_apply (iblk1 V c 0 t) (iblk1 V c 1 t) j (biasIdx (((cfg1.win 2).blk t).view.emb j)) rfl hcol).trans ?_
  refine biasTanh_of_entries _ _ _ _ _ ?_ ?_
  · show V c main_v15 (((cfg1.win 0).blk t).view.emb j) = V c main_v15 (((cfg1.win 2).blk t).view.emb j)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * (j 1).val = win1_2.index t (1 : Fin 2) * 512 + 1 * (j 1).val; omega
  · show V c main_v16 (((cfg1.win 1).blk t).view.emb (biasIdx (((cfg1.win 2).blk t).view.emb j)))
      = V c main_v16 (biasIdx (((cfg1.win 2).blk t).view.emb j))
    refine congrArg _ (funext fun a => Fin.ext ?_)
    match a with
    | ⟨0, _⟩ => show win1_1.index t (0 : Fin 2) * 1 + 1 * 0 = 0; omega
    | ⟨1, _⟩ => show win1_1.index t (1 : Fin 2) * 512 + 1 * ((((cfg1.win 2).blk t).view.emb j) 1).val = ((((cfg1.win 2).blk t).view.emb j) 1).val; omega

/-- An index of the array is in point `t`'s row block iff each coordinate is in the block's range on its axis. -/
theorem mem_rowBlock1 (t : Fin cfg1.N) (i : S100000x512.Idx) :
    i ∈ ((cfg1.win 2).blk t).view.set ↔ ∀ a : Fin 2, win1_2.index t a * S2000x512.size a ≤ (i a).val
      ∧ (i a).val < win1_2.index t a * S2000x512.size a + S2000x512.size a := by
  show i ∈ ((View.whole main_v17).slice (win1_2.rect t)).set ↔ _
  rw [View.set_slice_whole, Rect.mem_set_unit]
  exact Iff.rfl

/-- Row `r` of the array is in the block of point `r / 2000`: the fifty row blocks fill the array. -/
theorem rowBlocks_cover1 (i : S100000x512.Idx) :
    ∃ t : Fin cfg1.N, (cfg1.win 2).flush t = true ∧ i ∈ ((cfg1.win 2).blk t).view.set := by
  have hi0 : (i 0).val < 100000 := (i 0).isLt
  have hi1 : (i 1).val < 512 := (i 1).isLt
  have hN : grid1.N = 50 := N_1
  obtain ⟨t, ht⟩ : ∃ t : Fin cfg1.N, t.val = (i 0).val / 2000 :=
    ⟨⟨(i 0).val / 2000, by show (i 0).val / 2000 < grid1.N; omega⟩, rfl⟩
  obtain ⟨e0, e1, e2, e3, e4, e5⟩ := index_maps1 t
  refine ⟨t, flush1_2 t, ?_⟩
  rw [mem_rowBlock1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 512 ≤ (i 1).val ∧ (i 1).val < win1_2.index t (1 : Fin 2) * 512 + 512
    omega

theorem region1_array (V : (c : Dev nD) → (b : Ref sig .tc) → Buf (Elt Ideal) ((c : Thread nD τ).loc b)) (c : Dev nD) :
    (dat1 (F := Ideal) V c).arrAt 2 cfg1.N = biasTanh (V c main_v15) (V c main_v16) :=
  (dat1 (F := Ideal) V c).arrAt_eq_of_cover 2 (biasTanh (V c main_v15) (V c main_v16))
    (fun t _ => flushed1_eq V c t) rowBlocks_cover1

end Cert.KernelIdeal.RegionValue

end
-- ==== Proof.KernelValue.lean ====
/-
  What the idealized kernel program computes, as one function of its arguments on the extended reals.

  The result buffer ends at what the second region wrote back, tanh(a + bias) of that region's two input arrays;
  those are the aggregate and the bias row the host stretch formed from what the first region left; and the first
  region left the product x·W of the first two arguments. The other arguments reach the host stretch as launched.
-/
import proofs.«149180_j47536698032657_2_alg».proof.Proof.KernelRun
import proofs.«149180_j47536698032657_2_alg».proof.Proof.HostStretch
import proofs.«149180_j47536698032657_2_alg».proof.Proof.Region0
import proofs.«149180_j47536698032657_2_alg».proof.Proof.Region1

set_option maxRecDepth 16384

noncomputable section

namespace Cert.KernelIdeal.RunValue

open Cert.KernelIdeal Cert.KernelIdeal.Gen Cert.KernelIdeal.RegionValue Cert.KernelIdeal.HostValue
open Idealize.ShloMosaic Idealize.ShloMosaic.TcCoe Idealize.SL.Sem

variable (m : (ℓ : Loc nD τ sig) → Buf (Elt Ideal) ℓ) (ρ : Dev nD → PrngReg)

/-- The kernel's function of the argument arrays: tanh(aggregate of the messages over x·W, + bias). -/
def kernelFn (c : Dev nD) : S100000x512.Idx → EReal :=
  biasTanh
    (agg (F := Ideal) (prodXW (m ((c : Thread nD τ).loc main_arg0)) (m ((c : Thread nD τ).loc main_arg1)))
      (m ((c : Thread nD τ).loc main_arg3)) (m ((c : Thread nD τ).loc main_arg4)) (m ((c : Thread nD τ).loc main_arg5)))
    (biasRow (F := Ideal) (m ((c : Thread nD τ).loc main_arg2)))

/-- The last boundary's contents of the result buffer are that function of the launch memory. -/
theorem result_value (c : Dev nD) : W3 m ρ c (Proc.devRef .tc main_v17) = kernelFn m c := by
  rw [exit1_v17, region1_array (V2 m ρ) c, entry_agg, entry_bias, exit0_v0, region0_array (V0 m ρ) c,
    exit0_arg2, exit0_arg3, exit0_arg4, exit0_arg5]
  rfl

/-- The run, with the result at the kernel's function of the arguments and the arguments unchanged. -/
theorem run_value : θ_run defs (onTc (τ := τ) (main (F := Ideal))) ⟨m, fun _ => 0, ρ⟩ (fun r => ∀ c : Dev nD,
      r.2.mem ((c.tc : Thread nD τ).loc main_v17) = kernelFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_result m ρ)

end Cert.KernelIdeal.RunValue

end
-- ==== Proof.LibSumExchange.lean ====
/-
  Exchanging a sum over the fibres of a projection with a sum over the preimages of a partial map.

  Setting: updates indexed by `T3` are scattered by a partial map `resR : T3 → Option T3` (an update lands on at
  most one element, or is dropped) and the result is then summed along the fibres of a projection `drop : T3 → T2`;
  or the updates are first summed along the fibres of `drop` and the sums scattered by `resK : T2 → Option T2`.
  When scattering commutes with the projection (`hcomm`) the two double sums agree in any commutative monoid:
  both are the sum of the updates `j` with `resK (drop j) = some y`.
-/
import Mathlib.Algebra.BigOperators.Group.Finset.Basic

namespace Cert.Algebra

/-- Scatter then sum the fibres of `drop`, or sum the fibres then scatter: when landing commutes with `drop`
    (`hcomm`) both double sums are the sum of the updates `j` with `resK (drop j) = some y`. Holds in any commutative
    monoid, for any finite index types and any decidability instances on the three filters. -/
theorem sum_drop_scatter_comm {M T3 T2 : Type} [AddCommMonoid M] [Fintype T3] [Fintype T2]
    (drop : T3 → T2) (resR : T3 → Option T3) (resK : T2 → Option T2)
    [∀ y, DecidablePred fun i => drop i = y] [∀ i, DecidablePred fun j => resR j = some i]
    [∀ y, DecidablePred fun j' => resK j' = some y]
    (hcomm : ∀ j, (resR j).map drop = resK (drop j)) (msg : T3 → M) (y : T2) :
    (∑ i ∈ Finset.univ.filter (fun i => drop i = y), ∑ j ∈ Finset.univ.filter (fun j => resR j = some i), msg j)
      = ∑ j' ∈ Finset.univ.filter (fun j' => resK j' = some y), ∑ j ∈ Finset.univ.filter (fun j => drop j = j'), msg j := by
  classical
  -- Both double sums equal the single sum of the updates `j` with `resK (drop j) = some y`.
  have hL : (∑ i ∈ Finset.univ.filter (fun i => drop i = y),
        ∑ j ∈ Finset.univ.filter (fun j => resR j = some i), msg j)
      = ∑ j ∈ Finset.univ.filter (fun j => resK (drop j) = some y), msg j := by
    rw [← Finset.sum_biUnion]
    · -- the union of the preimages `resR ⁻¹ {some i}` over the fibre `drop i = y`
      refine Finset.sum_congr ?_ (fun _ _ => rfl)
      ext j
      simp only [Finset.mem_biUnion, Finset.mem_filter, Finset.mem_univ, true_and]
      rw [← hcomm j]
      constructor
      · rintro ⟨i, hi, hj⟩
        rw [hj, Option.map_some, hi]
      · intro h
        cases hr : resR j with
        | none => rw [hr] at h; exact absurd h (by simp)
        | some i =>
          rw [hr, Option.map_some] at h
          exact ⟨i, Option.some.inj h, rfl⟩
    · -- an update lands on at most one element, so the preimages are pairwise disjoint
      intro i _ i' _ hne
      rw [Function.onFun, Finset.disjoint_left]
      intro j hj hj'
      rw [Finset.mem_filter] at hj hj'
      exact hne (Option.some.inj (hj.2.symm.trans hj'.2))
  have hR : (∑ j' ∈ Finset.univ.filter (fun j' => resK j' = some y),
        ∑ j ∈ Finset.univ.filter (fun j => drop j = j'), msg j)
      = ∑ j ∈ Finset.univ.filter (fun j => resK (drop j) = some y), msg j := by
    rw [← Finset.sum_biUnion]
    · -- the union of the fibres of `drop` over the preimage `resK ⁻¹ {some y}`
      refine Finset.sum_congr ?_ (fun _ _ => rfl)
      ext j
      simp only [Finset.mem_biUnion, Finset.mem_filter, Finset.mem_univ, true_and]
      constructor
      · rintro ⟨j', hj', hj⟩
        rw [hj]; exact hj'
      · intro h
        exact ⟨drop j, h, rfl⟩
    · -- distinct fibres of `drop` are disjoint
      intro j' _ j'' _ hne
      rw [Function.onFun, Finset.disjoint_left]
      intro j hj hj'
      rw [Finset.mem_filter] at hj hj'
      exact hne (hj.2.symm.trans hj'.2)
  rw [hL, hR]

end Cert.Algebra
-- ==== Proof.ScatterDrop.lean ====
/-
  The two scatters' landing indices, and the projection that forgets the slot axis.

  An update index (e, s, c) of the [100000, 3, 512] scatter lands at (d, s, c) where d is the signed value of the
  scatter index of edge e, when 0 ≤ d < 100000, and is dropped otherwise; an update index (e, c) of the
  [100000, 512] scatter lands at (d, c) under the same condition. So forgetting the slot coordinate commutes with
  landing.
-/
import proofs.«149180_j47536698032657_2_alg».proof.KernelIdeal
import proofs.«149180_j47536698032657_2_alg».proof.ReferenceIdeal
import proofs.«149180_j47536698032657_2_alg».proof.Proof.Gen.KernelIdeal
import proofs.«149180_j47536698032657_2_alg».proof.Proof.Gen.ReferenceIdeal

namespace Cert.Algebra

open Idealize.ShloMosaic

namespace ScatterDrop

/-- The scatter of the [100000, 3, 512] updates. -/
abbrev dR := Cert.ReferenceIdeal.scatter_S100000x3x512_S100000x1_S100000x3x512_12_0_0_1
/-- The scatter of the [100000, 512] updates. -/
abbrev dK := Cert.KernelIdeal.scatter_S100000x512_S100000x1_S100000x512_1_0_0_1
/-- Forgetting the slot axis (axis 1) of a [100000, 3, 512] index. -/
abbrev hred := Cert.KernelIdeal.Facts₀.reducesTo_S100000x3x512_S100000x512_d1

/-! ### The [100000, 3, 512] scatter, axis by axis

Operand axis 0 is the only scattered axis and the only inserted one: its start is the signed scatter index read at
the update's edge, its window coordinate is 0. Axes 1 and 2 are window axes: start 0, window coordinate the
update's own coordinate. -/

theorem startR_0 (idx : IVec Cert.KernelIdeal.S100000x1 32) (j : Cert.ReferenceIdeal.S100000x3x512.Idx) :
    dR.start j idx 0 = (idx (dR.siIdx j ⟨0, by decide⟩)).toInt := by
  unfold ScatterDims.start
  rw [dif_pos (show (0 : Fin Cert.ReferenceIdeal.S100000x3x512.rank) ∈ dR.scatterDimsToOperandDims by decide)]
  rfl

theorem startR_1 (idx : IVec Cert.KernelIdeal.S100000x1 32) (j : Cert.ReferenceIdeal.S100000x3x512.Idx) :
    dR.start j idx 1 = 0 := by
  unfold ScatterDims.start
  rw [dif_neg (show ¬ (1 : Fin Cert.ReferenceIdeal.S100000x3x512.rank) ∈ dR.scatterDimsToOperandDims by decide)]

theorem startR_2 (idx : IVec Cert.KernelIdeal.S100000x1 32) (j : Cert.ReferenceIdeal.S100000x3x512.Idx) :
    dR.start j idx 2 = 0 := by
  unfold ScatterDims.start
  rw [dif_neg (show ¬ (2 : Fin Cert.ReferenceIdeal.S100000x3x512.rank) ∈ dR.scatterDimsToOperandDims by decide)]

theorem windowR_0 (j : Cert.ReferenceIdeal.S100000x3x512.Idx) : dR.window j 0 = 0 := by
  unfold ScatterDims.window
  rw [dif_neg (show ¬ (0 : Fin Cert.ReferenceIdeal.S100000x3x512.rank) ∈ dR.sKept by decide)]

theorem windowR_1 (j : Cert.ReferenceIdeal.S100000x3x512.Idx) : dR.window j 1 = (j 1).val := by
  unfold ScatterDims.window
  rw [dif_pos (show (1 : Fin Cert.ReferenceIdeal.S100000x3x512.rank) ∈ dR.sKept by decide)]
  rfl

theorem windowR_2 (j : Cert.ReferenceIdeal.S100000x3x512.Idx) : dR.window j 2 = (j 2).val := by
  unfold ScatterDims.window
  rw [dif_pos (show (2 : Fin Cert.ReferenceIdeal.S100000x3x512.rank) ∈ dR.sKept by decide)]
  rfl

/-! ### The [100000, 512] scatter, axis by axis

Axis 0 is scattered and inserted as before; axis 1 is the one window axis. -/

theorem startK_0 (idx : IVec Cert.KernelIdeal.S100000x1 32) (j : Cert.KernelIdeal.S100000x512.Idx) :
    dK.start j idx 0 = (idx (dK.siIdx j ⟨0, by decide⟩)).toInt := by
  unfold ScatterDims.start
  rw [dif_pos (show (0 : Fin Cert.KernelIdeal.S100000x512.rank) ∈ dK.scatterDimsToOperandDims by decide)]
  rfl

theorem startK_1 (idx : IVec Cert.KernelIdeal.S100000x1 32) (j : Cert.KernelIdeal.S100000x512.Idx) :
    dK.start j idx 1 = 0 := by
  unfold ScatterDims.start
  rw [dif_neg (show ¬ (1 : Fin Cert.KernelIdeal.S100000x512.rank) ∈ dK.scatterDimsToOperandDims by decide)]

theorem windowK_0 (j : Cert.KernelIdeal.S100000x512.Idx) : dK.window j 0 = 0 := by
  unfold ScatterDims.window
  rw [dif_neg (show ¬ (0 : Fin Cert.KernelIdeal.S100000x512.rank) ∈ dK.sKept by decide)]

theorem windowK_1 (j : Cert.KernelIdeal.S100000x512.Idx) : dK.window j 1 = (j 1).val := by
  unfold ScatterDims.window
  rw [dif_pos (show (1 : Fin Cert.KernelIdeal.S100000x512.rank) ∈ dK.sKept by decide)]
  rfl

/-- Both scatters read the scatter indices at the same place, (e, 0) with e the update's edge coordinate:
    forgetting the slot axis keeps the edge coordinate. -/
theorem siIdx_drop (j : Cert.ReferenceIdeal.S100000x3x512.Idx) :
    dK.siIdx (hred.drop j) ⟨0, by decide⟩ = dR.siIdx j ⟨0, by decide⟩ := by
  funext b
  apply Fin.ext
  match b with
  | ⟨0, _⟩ =>
    unfold ScatterDims.siIdx
    rw [dif_neg (show ¬ ((⟨0, by decide⟩ : Fin Cert.KernelIdeal.S100000x1.rank).val = dK.indexVectorDim) by decide),
        dif_neg (show ¬ ((⟨0, by decide⟩ : Fin Cert.ReferenceIdeal.S100000x1.rank).val = dR.indexVectorDim) by decide)]
    rfl
  | ⟨1, _⟩ =>
    unfold ScatterDims.siIdx
    rw [dif_pos (show ((⟨1, by decide⟩ : Fin Cert.KernelIdeal.S100000x1.rank).val = dK.indexVectorDim) by decide),
        dif_pos (show ((⟨1, by decide⟩ : Fin Cert.ReferenceIdeal.S100000x1.rank).val = dR.indexVectorDim) by decide)]

end ScatterDrop

open ScatterDrop in
theorem resultIdx_drop (idx : IVec Cert.KernelIdeal.S100000x1 32) (j : Cert.ReferenceIdeal.S100000x3x512.Idx) :
    (Cert.ReferenceIdeal.scatter_S100000x3x512_S100000x1_S100000x3x512_12_0_0_1.resultIdx? j idx).map
        (Cert.ReferenceIdeal.Facts₀.reducesTo_S100000x3x512_S100000x512_d1).drop
      = Cert.KernelIdeal.scatter_S100000x512_S100000x1_S100000x512_1_0_0_1.resultIdx?
          ((Cert.KernelIdeal.Facts₀.reducesTo_S100000x3x512_S100000x512_d1).drop j) idx := by
  -- the two starts on axis 0 are the same signed scatter index
  have hD : dK.start (hred.drop j) idx 0 = dR.start j idx 0 := by
    rw [startK_0, startR_0, siIdx_drop]
  have h1 : (j 1).val < 3 := (j 1).isLt
  have h2 : (j 2).val < 512 := (j 2).isLt
  have hw1 : dK.window (hred.drop j) 1 = (j 2).val := by rw [windowK_1]; rfl
  -- either side lands exactly when that index is inside [0, 100000): the window axes are always in range
  by_cases hc : 0 ≤ dR.start j idx 0 ∧ dR.start j idx 0 < 100000
  · have hRc : ∀ a, 0 ≤ dR.start j idx a + dR.window j a ∧
        dR.start j idx a + dR.window j a < Cert.ReferenceIdeal.S100000x3x512.size a := by
      intro a
      match a with
      | ⟨0, _⟩ =>
        show 0 ≤ dR.start j idx 0 + (dR.window j 0 : Nat) ∧ dR.start j idx 0 + (dR.window j 0 : Nat) < ((100000 : Nat) : Int)
        rw [windowR_0]; omega
      | ⟨1, _⟩ =>
        show 0 ≤ dR.start j idx 1 + (dR.window j 1 : Nat) ∧ dR.start j idx 1 + (dR.window j 1 : Nat) < ((3 : Nat) : Int)
        rw [startR_1, windowR_1]; omega
      | ⟨2, _⟩ =>
        show 0 ≤ dR.start j idx 2 + (dR.window j 2 : Nat) ∧ dR.start j idx 2 + (dR.window j 2 : Nat) < ((512 : Nat) : Int)
        rw [startR_2, windowR_2]; omega
    have hKc : ∀ a, 0 ≤ dK.start (hred.drop j) idx a + dK.window (hred.drop j) a ∧
        dK.start (hred.drop j) idx a + dK.window (hred.drop j) a < Cert.KernelIdeal.S100000x512.size a := by
      intro a
      match a with
      | ⟨0, _⟩ =>
        show 0 ≤ dK.start (hred.drop j) idx 0 + (dK.window (hred.drop j) 0 : Nat) ∧
          dK.start (hred.drop j) idx 0 + (dK.window (hred.drop j) 0 : Nat) < ((100000 : Nat) : Int)
        rw [hD, windowK_0]; omega
      | ⟨1, _⟩ =>
        show 0 ≤ dK.start (hred.drop j) idx 1 + (dK.window (hred.drop j) 1 : Nat) ∧
          dK.start (hred.drop j) idx 1 + (dK.window (hred.drop j) 1 : Nat) < ((512 : Nat) : Int)
        rw [startK_1, hw1]; omega
    -- both land; the landing indices agree once the slot coordinate is forgotten
    unfold ScatterDims.resultIdx?
    rw [dif_pos hRc, dif_pos hKc, Option.map_some]
    congr 1
    funext b
    apply Fin.ext
    match b with
    | ⟨0, _⟩ =>
      show (dR.start j idx 0 + (dR.window j 0 : Nat)).toNat
        = (dK.start (hred.drop j) idx 0 + (dK.window (hred.drop j) 0 : Nat)).toNat
      rw [hD, windowR_0, windowK_0]
    | ⟨1, _⟩ =>
      show (dR.start j idx 2 + (dR.window j 2 : Nat)).toNat
        = (dK.start (hred.drop j) idx 1 + (dK.window (hred.drop j) 1 : Nat)).toNat
      rw [startR_2, startK_1, windowR_2, hw1]
  · have hRc : ¬ ∀ a, 0 ≤ dR.start j idx a + dR.window j a ∧
        dR.start j idx a + dR.window j a < Cert.ReferenceIdeal.S100000x3x512.size a := by
      intro h
      have h0 : 0 ≤ dR.start j idx 0 + (dR.window j 0 : Nat) ∧ dR.start j idx 0 + (dR.window j 0 : Nat) < ((100000 : Nat) : Int) := h 0
      rw [windowR_0] at h0
      exact hc (by omega)
    have hKc : ¬ ∀ a, 0 ≤ dK.start (hred.drop j) idx a + dK.window (hred.drop j) a ∧
        dK.start (hred.drop j) idx a + dK.window (hred.drop j) a < Cert.KernelIdeal.S100000x512.size a := by
      intro h
      have h0 : 0 ≤ dK.start (hred.drop j) idx 0 + (dK.window (hred.drop j) 0 : Nat) ∧
          dK.start (hred.drop j) idx 0 + (dK.window (hred.drop j) 0 : Nat) < ((100000 : Nat) : Int) := h 0
      rw [hD, windowK_0] at h0
      exact hc (by omega)
    -- both are dropped
    unfold ScatterDims.resultIdx?
    rw [dif_neg hRc, dif_neg hKc, Option.map_none]

end Cert.Algebra
-- ==== Proof.Bridge.lean ====
/-
  The reference's result is the kernel's function of the arguments, on the extended reals.

  Both programs project the node features (x·W, a 1536-wide row read as three 512-wide slots), form per edge e,
  slot s and channel c the message  h[src e, s, c] · eta[e, s]  by the same operations, and end with
  tanh(aggregate + bias). They differ in the order of two sums. The reference adds every message into the
  [node, slot, channel] array at its destination node and then sums the three slots of each node; the kernel sums
  the three slots of each edge first and adds the sums into the [node, channel] array. At a node n and channel c
  both are the sum of the messages (e, s, c) over the edges e whose destination is n and the slots s: a landing
  index, with its slot coordinate forgotten, is the landing index of the update with its slot coordinate forgotten
  (`resultIdx_drop`), so the two double sums run over the same messages (`sum_drop_scatter_comm`). Addition of
  extended reals is commutative and associative, which is all the exchange needs; no finiteness is used.
-/
import proofs.«149180_j47536698032657_2_alg».proof.Proof.Gen.ReferenceIdeal.Read
import proofs.«149180_j47536698032657_2_alg».proof.Proof.LibSumExchange
import proofs.«149180_j47536698032657_2_alg».proof.Proof.ScatterDrop
import proofs.«149180_j47536698032657_2_alg».proof.Proof.Region0
import proofs.«149180_j47536698032657_2_alg».proof.Proof.Region1
import proofs.«149180_j47536698032657_2_alg».proof.Proof.HostStretch
import Idealize.ShloMosaic.Lib.Pipeline.Value
import Idealize.ShloMosaic.Lib.ValueIdx
import Idealize.ShloMosaic.PureOps.Ideal.Laws

set_option maxRecDepth 16384

noncomputable section

namespace Cert.Bridge

open Cert.ReferenceIdeal Cert.ReferenceIdeal.Gen Cert.ReferenceIdeal.Read
open Cert.KernelIdeal.RegionValue Cert.KernelIdeal.HostValue Cert.Algebra
open Idealize.ShloMosaic Idealize.ShloMosaic.TcCoe Idealize.SL.Sem

/-- The kernel's row-block products, assembled, are the reference's one matrix product: entry (n, j) is the sum
    over k of x[n, k] · W[k, j] on both sides. -/
theorem prodXW_eq (x0 : (⟨S100000x512, .f32⟩ : BufTy).Contents (Elt Ideal)) (x1 : (⟨S512x1536, .f32⟩ : BufTy).Contents (Elt Ideal)) :
    prodXW x0 x1 = val_main_v0 (F := Ideal) x0 x1 := by
  funext i
  rw [val_main_v0_apply]
  unfold prodXW
  refine Finset.sum_congr rfl fun k _ => ?_
  have e0 : rowIdx i k = lidx_main_v0 i k := funext fun a => by match a with | ⟨0, _⟩ => rfl | ⟨1, _⟩ => rfl
  have e1 : colIdx i k = ridx_main_v0 i k := funext fun a => by match a with | ⟨0, _⟩ => rfl | ⟨1, _⟩ => rfl
  rw [e0, e1]

/-- The messages agree: the same wrap of the source index, the same gather of the same projected features, the same
    slot weights; the kernel's change of float format on the way is the identity on the extended reals. -/
theorem msg_eq (x0 : (⟨S100000x512, .f32⟩ : BufTy).Contents (Elt Ideal)) (x1 : (⟨S512x1536, .f32⟩ : BufTy).Contents (Elt Ideal))
    (x3 : (⟨S100000x3x1, .f32⟩ : BufTy).Contents (Elt Ideal)) (x4 : (⟨S100000, .i32⟩ : BufTy).Contents (Elt Ideal)) :
    msg (F := Ideal) (prodXW x0 x1) x3 x4 = val_main_v10 (F := Ideal) x0 x1 x3 x4 := by
  rw [prodXW_eq]
  rfl

/-- The reference scatters into zeros. -/
theorem zeros3 (i : S100000x3x512.Idx) : val_main_v11 (F := Ideal) i = 0 := by
  rw [val_main_v11_apply, val_main_cst_apply]; exact Ideal.ofBits_zero_f32
/-- Its slot sum starts from zero. -/
theorem init3 : val_main_cst_1 (F := Ideal) (Shape.Idx.first h_S_) = 0 := by
  rw [val_main_cst_1_apply]; exact Ideal.ofBits_zero_f32
/-- The kernel scatters into zeros. -/
theorem zeros2 (hb : Cert.KernelIdeal.S_.BroadcastsInDim Cert.KernelIdeal.S100000x512 (![] : Fin 0 → Fin Cert.KernelIdeal.S100000x512.rank))
    (i : Cert.KernelIdeal.S100000x512.Idx) :
    broadcastInDim Cert.KernelIdeal.S100000x512 ![] hb (constant (F := Ideal) Cert.KernelIdeal.S_ .f32 0x00000000#32) i = 0 :=
  (broadcastInDim_apply _ hb _ i (fun a => a.elim0) (fun a => a.elim0)).trans Ideal.ofBits_zero_f32
/-- Its slot sums start from zero. -/
theorem init2 (j : Cert.KernelIdeal.S_.Idx) : constant (F := Ideal) Cert.KernelIdeal.S_ .f32 0x00000000#32 j = 0 :=
  Ideal.ofBits_zero_f32

/-- The aggregates agree at every node and channel: slots summed after the scatter, or before it. -/
theorem agg_eq (x0 : (⟨S100000x512, .f32⟩ : BufTy).Contents (Elt Ideal)) (x1 : (⟨S512x1536, .f32⟩ : BufTy).Contents (Elt Ideal))
    (x3 : (⟨S100000x3x1, .f32⟩ : BufTy).Contents (Elt Ideal)) (x4 x5 : (⟨S100000, .i32⟩ : BufTy).Contents (Elt Ideal))
    (i : S100000x512.Idx) :
    val_main_v14 (F := Ideal) x0 x1 x3 x4 x5 i = agg (F := Ideal) (prodXW x0 x1) x3 x4 x5 i := by
  unfold val_main_v14 val_main_v13 val_main_v12 agg
  rw [msg_eq]
  simp only [Host.reduceAdd, Host.scatterAdd, Ideal.hostReduceAdd_def, Ideal.hostScatterAdd_def]
  unfold Ideal.hostReduceAdd Ideal.hostScatterAdd
  simp only [zeros3, init3, init2, zero_add]
  rw [zeros2, zero_add]
  exact @sum_drop_scatter_comm _ _ _ _ _ _ _ _ _ _ _ _ (resultIdx_drop _) _ i

/-- THE BRIDGE: the reference's result array is tanh(aggregate + bias) with the kernel's aggregate. -/
theorem ref_eq_kernel (x0 : (⟨S100000x512, .f32⟩ : BufTy).Contents (Elt Ideal)) (x1 : (⟨S512x1536, .f32⟩ : BufTy).Contents (Elt Ideal))
    (x2 : (⟨S512, .f32⟩ : BufTy).Contents (Elt Ideal)) (x3 : (⟨S100000x3x1, .f32⟩ : BufTy).Contents (Elt Ideal))
    (x4 x5 : (⟨S100000, .i32⟩ : BufTy).Contents (Elt Ideal)) :
    val_main_v18 (F := Ideal) x0 x1 x2 x3 x4 x5
      = biasTanh (agg (F := Ideal) (prodXW x0 x1) x3 x4 x5) (biasRow (F := Ideal) x2) := by
  funext i
  rw [val_main_v18_apply, val_main_v17_apply, val_main_v16_apply, val_main_v15_apply]
  unfold biasTanh
  rw [Ideal.hostUnary_tanh_def, Ideal.addf_def]
  have hb : biasRow (F := Ideal) x2 (biasIdx i) = x2 (idx_main_v15 (idx_main_v16 i)) := by
    unfold biasRow
    exact shapeCast_apply x2 _ _ _ (by
      rw [Shape.rowMajor_val_one, Shape.rowMajor_val_two]
      show (i 1).val = 0 * 512 + (i 1).val
      omega)
  rw [hb, agg_eq]

end Cert.Bridge

end
-- ==== Proof.lean ====
/-
  Message passing over a graph, fused differently: the kernel against its reference, on the extended reals.

  Both programs take node features x [100000, 512], a projection W [512, 1536], a bias [512], per-edge slot
  weights eta [100000, 3, 1] and the edges' source and destination node indices. Both form h = x·W, read each row
  of h as three 512-wide slots, and for every edge e, slot s and channel c the message h[src e, s, c] · eta[e, s];
  both return tanh(aggregate + bias), where the aggregate at node n and channel c is the sum of the messages of
  the edges into n over the three slots. The reference adds the messages into a [node, slot, channel] array and
  sums the slots afterwards; the kernel sums each edge's slots first and adds into a [node, channel] array, with
  the projection and the final bias-and-tanh pass as two pipelined regions (row blocks of 1000 and of 2000 rows).

  On the extended reals a change of float format is the identity and every sum is exact, so the two differ only
  in the order of two finite sums, and addition there is commutative and associative: the results agree for every
  input, finite or not (`Cert.Bridge.ref_eq_kernel`). The kernel's value is read off its run region by region
  (`Cert.KernelIdeal.RunValue.run_value`), the reference's off its run operation by operation. The idealization
  rewrote no operation, so `preserves` has nothing to state; the three frames are the programs' runs with the
  results dropped.
-/
import proofs.«149180_j47536698032657_2_alg».proof.Defs
import proofs.«149180_j47536698032657_2_alg».proof.Proof.Gen.Kernel
import proofs.«149180_j47536698032657_2_alg».proof.Proof.Gen.Kernel.Skeleton
import proofs.«149180_j47536698032657_2_alg».proof.Proof.Gen.Kernel.Launch
import proofs.«149180_j47536698032657_2_alg».proof.Proof.Gen.Kernel.Points
import proofs.«149180_j47536698032657_2_alg».proof.Proof.Gen.Kernel.Frame
import proofs.«149180_j47536698032657_2_alg».proof.Proof.Gen.KernelIdeal
import proofs.«149180_j47536698032657_2_alg».proof.Proof.Gen.KernelIdeal.Skeleton
import proofs.«149180_j47536698032657_2_alg».proof.Proof.Gen.KernelIdeal.Launch
import proofs.«149180_j47536698032657_2_alg».proof.Proof.Gen.KernelIdeal.Points
import proofs.«149180_j47536698032657_2_alg».proof.Proof.Gen.KernelIdeal.Frame
import proofs.«149180_j47536698032657_2_alg».proof.Proof.Gen.ReferenceIdeal
import proofs.«149180_j47536698032657_2_alg».proof.Proof.Gen.ReferenceIdeal.Run
import proofs.«149180_j47536698032657_2_alg».proof.Proof.Gen.ReferenceIdeal.Read
import proofs.«149180_j47536698032657_2_alg».proof.Proof.Gen.Pre_finite_inputs
import proofs.«149180_j47536698032657_2_alg».proof.Proof.KernelValue
import proofs.«149180_j47536698032657_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the same result array: the kernel's
    function of the arguments, which the reference's composed term equals (`ref_eq_kernel`). -/
theorem algebraic : Cert.algebraic_KernelIdeal_ReferenceIdeal := by
  intro m ρ m' ρ' _ hagree
  refine ⟨fun c => Cert.KernelIdeal.RunValue.kernelFn m c, Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1,
    (hagree c).2.2.2.2.1, (hagree c).2.2.2.2.2, Cert.Bridge.ref_eq_kernel]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
